-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x32 : Shape := ⟨3, ![8, 50000, 32]⟩
abbrev S800000 : Shape := ⟨1, ![800000]⟩
abbrev S32x32 : Shape := ⟨2, ![32, 32]⟩
abbrev S32 : Shape := ⟨1, ![32]⟩
abbrev S_ : Shape := ⟨0, ![]⟩

class Facts : Prop where
  bcast_S_S8x50000x32 : S_.BroadcastsInDim S8x50000x32 (![] : Fin 0 → Fin S8x50000x32.rank)
  reducesTo_S8x50000x32_S_d0_1_2 : S8x50000x32.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S8x50000x32 .f32) (main_arg1 : IVec S800000 32) (main_arg2 : IVec S800000 32) (main_arg3 : FVec F S800000 .f32) (main_arg4 : FVec F S32x32 .f32) (main_arg5 : FVec F S32 .f32) : IVec S_ 1 :=
  let main_v0 : FVec F S8x50000x32 .f32 := Host.absf main_arg0
  let main_cst : FVec F S_ .f32 := constant S_ .f32 0x7F800000#32
  let main_v1 : FVec F S8x50000x32 .f32 := broadcastInDim S8x50000x32 ![] bcast_S_S8x50000x32 main_cst
  let main_v2 : IVec S8x50000x32 1 := cmpf .olt main_v0 main_v1
  let main_c : IVec S_ 1 := constantI S_ 1 1#1
  let main_v3 : IVec S_ 1 := (fun x v => Host.reduce IntOp.andi x v reducesTo_S8x50000x32_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S8x50000x32 : Shape := ⟨3, ![8, 50000, 32]⟩
abbrev S800000 : Shape := ⟨1, ![800000]⟩
abbrev S32x32 : Shape := ⟨2, ![32, 32]⟩
abbrev S32 : Shape := ⟨1, ![32]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S8x800000x32 : Shape := ⟨3, ![8, 800000, 32]⟩
abbrev S1x800000x1 : Shape := ⟨3, ![1, 800000, 1]⟩
abbrev S400000x32 : Shape := ⟨2, ![400000, 32]⟩
abbrev S10000x32 : Shape := ⟨2, ![10000, 32]⟩
abbrev S1x32 : Shape := ⟨2, ![1, 32]⟩

abbrev nBuf : Space → Nat
  | .hbm => 46
  | .vmem => 6
  | .smem => 0
  | _ => 0

abbrev bufTy : (tb : Table) → Fin (tcTables nBuf tb) → BufTy
  | .hbm, ⟨0, _⟩ => ⟨S8x50000x32, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S32x32, .f32⟩
  | .hbm, ⟨5, _⟩ => ⟨S32, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S1, .i32⟩
  | .hbm, ⟨15, _⟩ => ⟨S_, .i32⟩
  | .hbm, ⟨16, _⟩ => ⟨S800000x1, .i32⟩
  | .hbm, ⟨17, _⟩ => ⟨S800000x1, .i1⟩
  | .hbm, ⟨18, _⟩ => ⟨S1x1, .i32⟩
  | .hbm, ⟨19, _⟩ => ⟨S800000x1, .i32⟩
  | .hbm, ⟨20, _⟩ => ⟨S800000x1, .i1⟩
  | .hbm, ⟨21, _⟩ => ⟨S800000x1, .i1⟩
  | .hbm, ⟨22, _⟩ => ⟨S_, .i1⟩
  | .hbm, ⟨23, _⟩ => ⟨S800000, .i1⟩
  | .hbm, ⟨24, _⟩ => ⟨S8x800000x32, .f32⟩
  | .hbm, ⟨25, _⟩ => ⟨S8x800000x32, .i1⟩
  | .hbm, ⟨26, _⟩ => ⟨S_, .f32⟩
  | .hbm, ⟨27, _⟩ => ⟨S8x800000x32, .f32⟩
  | .hbm, ⟨28, _⟩ => ⟨S8x800000x32, .f32⟩
  | .hbm, ⟨29, _⟩ => ⟨S1x800000x1, .f32⟩
  | .hbm, ⟨30, _⟩ => ⟨S8x800000x32, .f32⟩
  | .hbm, ⟨31, _⟩ => ⟨S8x800000x32, .f32⟩
  | .hbm, ⟨32, _⟩ => ⟨S_, .f32⟩
  | .hbm, ⟨33, _⟩ => ⟨S8x50000x32, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S8x50000x32, .f32⟩
  | .hbm, ⟨43, _⟩ => ⟨S400000x32, .f32⟩
  | .hbm, ⟨44, _⟩ => ⟨S400000x32, .f32⟩
  | .hbm, ⟨45, _⟩ => ⟨S8x50000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S32, .f32⟩
  | .local _ .vmem, ⟨4, _⟩ => ⟨S10000x32, .f32⟩
  | .local _ .vmem, ⟨5, _⟩ => ⟨S10000x32, .f32⟩
  | _, _ => ⟨S8x50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S8x800000x32_1 : S800000.BroadcastsInDim S8x800000x32 (![1] : Fin 1 → Fin S8x800000x32.rank)
  bcast_S_S8x800000x32 : S_.BroadcastsInDim S8x800000x32 (![] : Fin 0 → Fin S8x800000x32.rank)
  bcast_S800000_S1x800000x1_1 : S800000.BroadcastsInDim S1x800000x1 (![1] : Fin 1 → Fin S1x800000x1.rank)
  bcast_S1x800000x1_S8x800000x32_0_1_2 : S1x800000x1.BroadcastsInDim S8x800000x32 (![0, 1, 2] : Fin 3 → Fin S8x800000x32.rank)
  bcast_S_S8x50000x32 : S_.BroadcastsInDim S8x50000x32 (![] : Fin 0 → Fin S8x50000x32.rank)
  shapeCasts_S8x50000x32_S400000x32 : S8x50000x32.ShapeCasts S400000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  shapeCasts_S400000x32_S8x50000x32 : S400000x32.ShapeCasts S8x50000x32
  gather_S8x50000x32_S800000x1_S8x800000x32_02_1_n_n_1_1_8132_wf : GatherDims.WF S8x50000x32 S800000x1 S8x800000x32 [0, 2] [1] [] [1] [] 1 ![8, 1, 32]
  scatter_S8x50000x32_S800000x1_S8x800000x32_02_1_1_1_wf : ScatterDims.WF S8x50000x32 S800000x1 S8x800000x32 [0, 2] [1] [1] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S400000x32.size a
  hwx0_0 : ∀ i : grid0.Coords, EltTy.bits .f32 = 32 ∨ (Rect.block (s := S400000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S400000x32.size a
  hwx0_3 : ∀ i : grid0.Coords, EltTy.bits .f32 = 32 ∨ (Rect.block (s := S400000x32) S10000x32.size (cc0_transform_3 i) (hinb0_3 i)).WholeWords (EltTy.packing .f32)

variable [Facts₀]

def gather_S8x50000x32_S800000x1_S8x800000x32_02_1_n_n_1_1_8132 : GatherDims S8x50000x32 S800000x1 S8x800000x32 where
  offsetDims := [0, 2]
  collapsedSliceDims := [1]
  operandBatchingDims := []
  startIndicesBatchingDims := []
  startIndexMap := [1]
  indexVectorDim := 1
  sliceSizes := ![8, 1, 32]
  wf := gather_S8x50000x32_S800000x1_S8x800000x32_02_1_n_n_1_1_8132_wf
def scatter_S8x50000x32_S800000x1_S8x800000x32_02_1_1_1 : ScatterDims S8x50000x32 S800000x1 S8x800000x32 where
  updateWindowDims := [0, 2]
  insertedWindowDims := [1]
  scatterDimsToOperandDims := [1]
  indexVectorDim := 1
  wf := scatter_S8x50000x32_S800000x1_S8x800000x32_02_1_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_v12) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x50000x32 : Shape := ⟨3, ![8, 50000, 32]⟩
abbrev S800000 : Shape := ⟨1, ![800000]⟩
abbrev S32x32 : Shape := ⟨2, ![32, 32]⟩
abbrev S32 : Shape := ⟨1, ![32]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S8x800000x32 : Shape := ⟨3, ![8, 800000, 32]⟩
abbrev S1x800000x1 : Shape := ⟨3, ![1, 800000, 1]⟩
abbrev S1x1x32 : Shape := ⟨3, ![1, 1, 32]⟩

abbrev nBuf : Space → Nat
  | .hbm => 47
  | .vmem => 0
  | .smem => 0
  | _ => 0

abbrev bufTy : (tb : Table) → Fin (tcTables nBuf tb) → BufTy
  | .hbm, ⟨0, _⟩ => ⟨S8x50000x32, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S32x32, .f32⟩
  | .hbm, ⟨5, _⟩ => ⟨S32, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S1, .i32⟩
  | .hbm, ⟨15, _⟩ => ⟨S_, .i32⟩
  | .hbm, ⟨16, _⟩ => ⟨S800000x1, .i32⟩
  | .hbm, ⟨17, _⟩ => ⟨S800000x1, .i1⟩
  | .hbm, ⟨18, _⟩ => ⟨S1x1, .i32⟩
  | .hbm, ⟨19, _⟩ => ⟨S800000x1, .i32⟩
  | .hbm, ⟨20, _⟩ => ⟨S800000x1, .i1⟩
  | .hbm, ⟨21, _⟩ => ⟨S800000x1, .i1⟩
  | .hbm, ⟨22, _⟩ => ⟨S_, .i1⟩
  | .hbm, ⟨23, _⟩ => ⟨S800000, .i1⟩
  | .hbm, ⟨24, _⟩ => ⟨S8x800000x32, .f32⟩
  | .hbm, ⟨25, _⟩ => ⟨S8x800000x32, .i1⟩
  | .hbm, ⟨26, _⟩ => ⟨S_, .f32⟩
  | .hbm, ⟨27, _⟩ => ⟨S8x800000x32, .f32⟩
  | .hbm, ⟨28, _⟩ => ⟨S8x800000x32, .f32⟩
  | .hbm, ⟨29, _⟩ => ⟨S1x800000x1, .f32⟩
  | .hbm, ⟨30, _⟩ => ⟨S8x800000x32, .f32⟩
  | .hbm, ⟨31, _⟩ => ⟨S8x800000x32, .f32⟩
  | .hbm, ⟨32, _⟩ => ⟨S_, .f32⟩
  | .hbm, ⟨33, _⟩ => ⟨S8x50000x32, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S8x50000x32, .f32⟩
  | .hbm, ⟨43, _⟩ => ⟨S8x50000x32, .f32⟩
  | .hbm, ⟨44, _⟩ => ⟨S1x1x32, .f32⟩
  | .hbm, ⟨45, _⟩ => ⟨S8x50000x32, .f32⟩
  | .hbm, ⟨46, _⟩ => ⟨S8x50000x32, .f32⟩
  | _, _ => ⟨S8x50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S8x800000x32_1 : S800000.BroadcastsInDim S8x800000x32 (![1] : Fin 1 → Fin S8x800000x32.rank)
  bcast_S_S8x800000x32 : S_.BroadcastsInDim S8x800000x32 (![] : Fin 0 → Fin S8x800000x32.rank)
  bcast_S800000_S1x800000x1_1 : S800000.BroadcastsInDim S1x800000x1 (![1] : Fin 1 → Fin S1x800000x1.rank)
  bcast_S1x800000x1_S8x800000x32_0_1_2 : S1x800000x1.BroadcastsInDim S8x800000x32 (![0, 1, 2] : Fin 3 → Fin S8x800000x32.rank)
  bcast_S_S8x50000x32 : S_.BroadcastsInDim S8x50000x32 (![] : Fin 0 → Fin S8x50000x32.rank)
  bcast_S32_S1x1x32_2 : S32.BroadcastsInDim S1x1x32 (![2] : Fin 1 → Fin S1x1x32.rank)
  bcast_S1x1x32_S8x50000x32_0_1_2 : S1x1x32.BroadcastsInDim S8x50000x32 (![0, 1, 2] : Fin 3 → Fin S8x50000x32.rank)
  gather_S8x50000x32_S800000x1_S8x800000x32_02_1_n_n_1_1_8132_wf : GatherDims.WF S8x50000x32 S800000x1 S8x800000x32 [0, 2] [1] [] [1] [] 1 ![8, 1, 32]
  scatter_S8x50000x32_S800000x1_S8x800000x32_02_1_1_1_wf : ScatterDims.WF S8x50000x32 S800000x1 S8x800000x32 [0, 2] [1] [1] 1
  dot_S8x50000x32_S32x32_S8x50000x32_2_0_01_1_n_n_wf : DotDims.WF S8x50000x32 S32x32 S8x50000x32 [2] [0] [0, 1] [1] [] []

variable [Facts₀]

def gather_S8x50000x32_S800000x1_S8x800000x32_02_1_n_n_1_1_8132 : GatherDims S8x50000x32 S800000x1 S8x800000x32 where
  offsetDims := [0, 2]
  collapsedSliceDims := [1]
  operandBatchingDims := []
  startIndicesBatchingDims := []
  startIndexMap := [1]
  indexVectorDim := 1
  sliceSizes := ![8, 1, 32]
  wf := gather_S8x50000x32_S800000x1_S8x800000x32_02_1_n_n_1_1_8132_wf
def scatter_S8x50000x32_S800000x1_S8x800000x32_02_1_1_1 : ScatterDims S8x50000x32 S800000x1 S8x800000x32 where
  updateWindowDims := [0, 2]
  insertedWindowDims := [1]
  scatterDimsToOperandDims := [1]
  indexVectorDim := 1
  wf := scatter_S8x50000x32_S800000x1_S8x800000x32_02_1_1_1_wf
def dot_S8x50000x32_S32x32_S8x50000x32_2_0_01_1_n_n : DotDims S8x50000x32 S32x32 S8x50000x32 where
  lhsContracting := [2]
  rhsContracting := [0]
  lhsNonContracting := [0, 1]
  rhsNonContracting := [1]
  lhsBatch := []
  rhsBatch := []
  wf := dot_S8x50000x32_S32x32_S8x50000x32_2_0_01_1_n_n_wf

class Facts : Prop extends Facts₀ where

variable [Facts]
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseBlock.lean ====
/-
  A dense layer with a bias vector, read at an entry — as one whole-array function, and as the matrix unit computes
  it on a block of rows.

  On the extended reals narrowing an operand to bf16 changes nothing and a product accumulated from zero is the plain
  sum over the contracted coordinate, so a block computed as
      matmul(bf16(x), bf16(w), 0) + rows(row(b))
  is at entry (p, q) the row p of x against the column q of w, plus b(q): the same reading as the dense layer whose
  bias row is the vector b cast to a row.  When the block's rows are rows of a larger array, the block's entries are
  the larger array's dense layer at the shifted rows (`rowDot_of_row`).
-/
import proofs.«146324_j43559558316209_1_alg».proof.Proof.LibDense
import Idealize.ShloMosaic.Lib.ValueLayout

noncomputable section

namespace Cert.Lib.DenseBlock

open Idealize.ShloMosaic Idealize.ShloMosaic.ValueIdx Cert.Lib.Dense
open scoped BigOperators

/-- Zero offsets, however spelt. -/
theorem zeros2 : (![0, 0] : Fin 2 → Nat) = fun _ => 0 := funext fun a => by fin_cases a <;> rfl
theorem zeros1 : (![0] : Fin 1 → Nat) = fun _ => 0 := funext fun a => by fin_cases a <;> rfl

/-- A dense layer whose bias row is a vector cast to a row, at entry `(p, q)`: row `p` of `x` against column `q` of
    `w`, plus the bias vector's entry `q`. -/
theorem dense_vec_apply {M K N : ℕ} (x : (⟨2, ![M, K]⟩ : Shape).Idx → EReal) (w : (⟨2, ![K, N]⟩ : Shape).Idx → EReal)
    (b : (⟨1, ![N]⟩ : Shape).Idx → EReal) (hc : (⟨1, ![N]⟩ : Shape).ShapeCasts ⟨2, ![1, N]⟩) (p : Fin M) (q : Fin N) :
    dense id x w (shapeCast ⟨2, ![1, N]⟩ b hc) (ix2 p q) = rowDot x w p q + b (ix1 q) := by
  rw [dense_ix2]
  exact congrArg (fun z : EReal => rowDot x w p q + z) (shapeCast_a_1a_apply b hc 0 q)

section Block

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- The same layer on the matrix unit: both operands narrowed to bf16 (the identity on the extended reals), the
    product accumulated from zero, the bias vector cast to a row and spread over the rows. -/
theorem mxu_dense_apply (x : FVec Ideal ⟨2, ![M, K]⟩ .f32) (w : FVec Ideal ⟨2, ![K, N]⟩ .f32) (b : FVec Ideal ⟨1, ![N]⟩ .f32)
    (hbits : FTy.bits .bf16 < FTy.bits .f32) (hc : (⟨1, ![N]⟩ : Shape).ShapeCasts ⟨2, ![1, N]⟩)
    (hbr : (⟨2, ![1, N]⟩ : Shape).Broadcasts ⟨2, ![M, N]⟩) (p : Fin M) (q : Fin N) :
    addf (F := Ideal) (matmul D none (truncf .bf16 x hbits) (truncf .bf16 w hbits) (constant ⟨2, ![M, N]⟩ .f32 0x00000000#32))
        (broadcastTo ⟨2, ![M, N]⟩ (shapeCast ⟨2, ![1, N]⟩ b hc) hbr) (ix2 p q)
      = rowDot x w p q + b (ix1 q) := by
  refine congrArg₂ (fun u v : EReal => u + v) ?_ ?_
  · exact matmul_zero_at D hlc hrc hln hrn hlb hrb (truncf .bf16 x hbits) (truncf .bf16 w hbits) p q
  · exact (broadcastTo_1b_ab_apply _ hbr p q).trans (shapeCast_a_1a_apply b hc 0 q)

end Block

/-- Rows of a block against a matrix: when row `p` of the block is row `r` of the whole array, so are their products
    with any column. -/
theorem rowDot_of_row {m M K N : ℕ} (xb : (⟨2, ![m, K]⟩ : Shape).Idx → EReal) (X : (⟨2, ![M, K]⟩ : Shape).Idx → EReal)
    (wb W : (⟨2, ![K, N]⟩ : Shape).Idx → EReal) (p : Fin m) (r : Fin M) (q : Fin N)
    (hx : ∀ k : Fin K, xb (ix2 p k) = X (ix2 r k)) (hw : ∀ k : Fin K, wb (ix2 k q) = W (ix2 k q)) :
    rowDot xb wb p q = rowDot X W r q :=
  Finset.sum_congr rfl fun k _ => by rw [hx k, hw k]

end Cert.Lib.DenseBlock

end
-- ==== Proof.Payload.lean ====
/-
  What the kernel body stores, entry by entry.

  The body loads a block of 10000 rows of the flattened aggregated array, the whole 32 × 32 weight matrix and the
  bias vector, narrows the two matrix operands to bf16 (the identity on the extended reals), multiplies them on the
  matrix unit into a zero accumulator and adds the bias spread over the rows.  At entry (p, q) of the block that is
  row p of the loaded rows against column q of the weights, plus b(q).
-/
import proofs.«146324_j43559558316209_1_alg».proof.Proof.Gen.KernelIdeal.Skeleton
import proofs.«146324_j43559558316209_1_alg».proof.Proof.LibDenseBlock

noncomputable section

namespace Cert.KernelIdeal.Dense

open Cert.KernelIdeal Cert.KernelIdeal.Gen Idealize.ShloMosaic Idealize.ShloMosaic.ValueIdx
open Cert.Lib.Dense Cert.Lib.DenseBlock

/-- The stored value at entry `(p, q)`. -/
theorem pay_apply (x0 : Vec Ideal S10000x32 .f32) (x1 : Vec Ideal S32x32 .f32) (x2 : Vec Ideal S32 .f32)
    (p : Fin 10000) (q : Fin 32) :
    k0_pay1 (F := Ideal) x0 x1 x2 (ix2 p q) = rowDot x0 x1 p q + x2 (ix1 q) := by
  have e : shapeCast S10000x32 x0 shapeCasts_S10000x32_S10000x32 = x0 := shapeCast_self x0 _
  show addf (F := Ideal) (matmul dot_S10000x32_S32x32_S10000x32_1_0_0_1_n_n none
      (truncf .bf16 (shapeCast S10000x32 x0 shapeCasts_S10000x32_S10000x32) bitsLt_bf16_f32) (truncf .bf16 x1 bitsLt_bf16_f32)
      (constant S10000x32 .f32 0x00000000#32))
    (broadcastTo S10000x32 (shapeCast S1x32 x2 shapeCasts_S32_S1x32) broadcasts_S1x32_S10000x32) (ix2 p q) = _
  rw [e]
  exact mxu_dense_apply dot_S10000x32_S32x32_S10000x32_1_0_0_1_n_n rfl rfl rfl rfl rfl rfl x0 x1 x2 bitsLt_bf16_f32
    shapeCasts_S32_S1x32 broadcasts_S1x32_S10000x32 p q

/-- The same at any index of the block, by its two coordinates. -/
theorem pay_at (x0 : Vec Ideal S10000x32 .f32) (x1 : Vec Ideal S32x32 .f32) (x2 : Vec Ideal S32 .f32) (y : S10000x32.Idx) :
    k0_pay1 (F := Ideal) x0 x1 x2 y = rowDot x0 x1 (y 0) (y 1) + x2 (ix1 (y 1)) := by
  obtain ⟨p, q, rfl⟩ : ∃ (p : Fin 10000) (q : Fin 32), y = ix2 p q := ⟨y 0, y 1, eq_ix2 y⟩
  exact pay_apply x0 x1 x2 p q

end Cert.KernelIdeal.Dense

end
-- ==== Proof.KernelValue.lean ====
/-
  The kernel's dense stage, from blocks to the whole array.

  The pallas_call runs over 40 grid points; point t loads rows 10000·t … 10000·t + 9999 of the flattened aggregated
  array Y (400000 × 32), the whole weight matrix W and the bias b, and writes back rows 10000·t … of its result.  Every
  point's block is the corresponding block of ONE whole-array function,
      dense Y W b (r, q) = Σ_k Y(r, k) · W(k, q) + b(q),
  because row p of point t's input block is row 10000·t + p of Y.  The 40 blocks tile the 400000 rows, so after the
  region the result array is that function; the reshape after the region only renames its rows.
-/
import proofs.«146324_j43559558316209_1_alg».proof.Proof.Gen.KernelIdeal.Frame
import proofs.«146324_j43559558316209_1_alg».proof.Proof.Payload
import Idealize.ShloMosaic.Lib.Pipeline.Value

noncomputable section

namespace Cert.KernelIdeal.Dense

open Cert.KernelIdeal Cert.KernelIdeal.Gen Idealize.ShloMosaic Idealize.ShloMosaic.TcCoe Idealize.SL.Sem
open Idealize.ShloMosaic.ValueIdx Cert.Lib.Dense Cert.Lib.DenseBlock
open Idealize.ShloMosaic.Pipeline (Dat)

variable (m : (ℓ : Loc nD τ sig) → Buf (Elt Ideal) ℓ) (ρ : Dev nD → PrngReg)

/-- The dense layer on the flattened array: entry `(r, q)` is row `r` of `Y` against column `q` of `W`, plus `b(q)`. -/
def layer (Y : S400000x32.Idx → EReal) (W : S32x32.Idx → EReal) (b : S32.Idx → EReal) : S400000x32.Idx → EReal :=
  fun i => rowDot Y W (i 0) (i 1) + b (ix1 (i 1))

/-- The printed index maps over the 40 grid points: the input rows' block index is the output's, which is the point's
    number; every other block index is zero. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- What point `t` writes back is block `t` of the dense layer of the arrays as the region finds them. -/
theorem flushed_eq (c : Dev nD) (t : Fin cfg0.N) :
    (dats m 0 c).flushed 3 t
      = ((cfg0.win 3).blk t).view.read (Elt Ideal) (layer (V m c main_v12) (V m c main_arg4) (V m c main_arg5)) := by
  show (cfg0.win 3).cut (grid0.coords t) ((dats m 0 c).after 3 t) = _
  rw [after0_3]
  unfold out0_3
  rw [View.canon_unit_zero zeros2]
  simp only [View.ld_unit_zero (S := S10000x32) zeros2, View.ld_unit_zero (S := S32x32) zeros2, View.ld_unit_zero (S := S32) zeros1]
  obtain ⟨e30, e31, e00, e01, e10, e11, e20⟩ := idx_facts t
  funext j
  have hj0 : (j 0).val < 10000 := (j 0).isLt
  have hj1 : (j 1).val < 32 := (j 1).isLt
  show k0_pay1 (F := Ideal) (iblk m c 0 t) (iblk m c 1 t) (iblk m c 2 t) j
    = layer (V m c main_v12) (V m c main_arg4) (V m c main_arg5) (((cfg0.win 3).blk t).view.emb j)
  refine (pay_at (iblk m c 0 t) (iblk m c 1 t) (iblk m c 2 t) j).trans ?_
  -- the output entry's coordinates in the array
  have hr : ((((cfg0.win 3).blk t).view.emb j) 0).val = t.val * 10000 + (j 0).val := by
    show win0_3.index t (0 : Fin 2) * 10000 + 1 * (j 0).val = _
    rw [e30]; omega
  have hq : (((cfg0.win 3).blk t).view.emb j) 1 = j 1 := by
    apply Fin.ext
    show win0_3.index t (1 : Fin 2) * 32 + 1 * (j 1).val = (j 1).val
    rw [e31]; omega
  unfold layer
  rw [hq]
  refine congrArg₂ (fun u v : EReal => u + v) ?_ ?_
  · refine rowDot_of_row (iblk m c 0 t) (V m c main_v12) (iblk m c 1 t) (V m c main_arg4) (j 0)
      ((((cfg0.win 3).blk t).view.emb j) 0) (j 1) (fun k => ?_) (fun k => ?_)
    · show V m c main_v12 (((cfg0.win 0).blk t).view.emb (ix2 (j 0) k)) = V m c main_v12 (ix2 ((((cfg0.win 3).blk t).view.emb j) 0) k)
      refine congrArg (V m c main_v12) (funext fun a => Fin.ext ?_)
      match a with
      | ⟨0, _⟩ =>
        show win0_0.index t (0 : Fin 2) * 10000 + 1 * (j 0).val = ((((cfg0.win 3).blk t).view.emb j) 0).val
        rw [hr, e00]; omega
      | ⟨1, _⟩ =>
        show win0_0.index t (1 : Fin 2) * 32 + 1 * k.val = k.val
        rw [e01]; omega
    · show V m c main_arg4 (((cfg0.win 1).blk t).view.emb (ix2 k (j 1))) = V m c main_arg4 (ix2 k (j 1))
      refine congrArg (V m c main_arg4) (funext fun a => Fin.ext ?_)
      match a with
      | ⟨0, _⟩ =>
        show win0_1.index t (0 : Fin 2) * 32 + 1 * k.val = k.val
        rw [e10]; omega
      | ⟨1, _⟩ =>
        show win0_1.index t (1 : Fin 2) * 32 + 1 * (j 1).val = (j 1).val
        rw [e11]; omega
  · show V m c main_arg5 (((cfg0.win 2).blk t).view.emb (ix1 (j 1))) = V m c main_arg5 (ix1 (j 1))
    refine congrArg (V m c main_arg5) (funext fun a => Fin.ext ?_)
    match a with
    | ⟨0, _⟩ =>
      show win0_2.index t (0 : Fin 1) * 32 + 1 * (j 1).val = (j 1).val
      rw [e20]; omega

/-- An index of the result array is in point `t`'s block iff each coordinate is in the block's range on its axis. -/
theorem mem_blk (t : Fin cfg0.N) (i : S400000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v13).slice (win0_3.rect t)).set ↔ _
  rw [View.set_slice_whole, Rect.mem_set_unit]
  exact Iff.rfl

/-- Every row of the result array is in the block of the point numbered by its ten-thousand. -/
theorem cover (i : S400000x32.Idx) : ∃ t : Fin cfg0.N, (cfg0.win 3).flush t = true ∧ i ∈ ((cfg0.win 3).blk t).view.set := by
  have hi0 : (i 0).val < 400000 := (i 0).isLt
  have hi1 : (i 1).val < 32 := (i 1).isLt
  have hN : cfg0.N = 40 := N_0
  refine ⟨⟨(i 0).val / 10000, by rw [hN]; omega⟩, flush0_3 _, ?_⟩
  obtain ⟨e30, e31, -⟩ := idx_facts ⟨(i 0).val / 10000, by rw [hN]; omega⟩
  rw [mem_blk]
  intro a
  match a with
  | ⟨0, _⟩ =>
    show win0_3.index _ (0 : Fin 2) * 10000 ≤ (i 0).val ∧ (i 0).val < win0_3.index _ (0 : Fin 2) * 10000 + 10000
    rw [e30]
    show (i 0).val / 10000 * 10000 ≤ (i 0).val ∧ (i 0).val < (i 0).val / 10000 * 10000 + 10000
    omega
  | ⟨1, _⟩ =>
    show win0_3.index _ (1 : Fin 2) * 32 ≤ (i 1).val ∧ (i 1).val < win0_3.index _ (1 : Fin 2) * 32 + 32
    rw [e31]; omega

/-- The result array after the region is the dense layer of the arrays as the region finds them. -/
theorem final (c : Dev nD) :
    (dats m 0 c).arrAt 3 cfg0.N = layer (V m c main_v12) (V m c main_arg4) (V m c main_arg5) :=
  (dats m 0 c).arrAt_eq_of_cover 3 _ (fun t _ => flushed_eq m c t) cover

end Cert.KernelIdeal.Dense

end
-- ==== Proof.Head.lean ====
/-
  The sparse stage both programs share, as one function of the argument arrays.

  For every batch n, edge e = (row r_e, column c_e, weight v_e) and feature f the edge's message is
  x(n, c_e, f) · v_e, and the aggregated array is  y(n, r, f) = Σ over the edges e with r_e = r of x(n, c_e, f) · v_e.
  The two programs compute y by literally the same sequence of host operations: a negative column index is wrapped by
  the node count, an index outside [0, 49999] gets the fill value instead of a gathered row, the gathered rows are
  weighted, and the weighted rows are scatter-added into zeros at the wrapped row indices.  Nothing below opens these
  operations: the equivalence of the two programs only needs that both feed the SAME array y to their dense stage.
-/
import proofs.«146324_j43559558316209_1_alg».proof.Proof.Gen.KernelIdeal

noncomputable section

namespace Cert.KernelIdeal.Sparse

open Cert.KernelIdeal Cert.KernelIdeal.Gen Idealize.ShloMosaic

variable {F : FTy → Type} [FloatOps F]

/-- An index vector with its negative entries wrapped by the node count 50000. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- The wrapped indices as a column of start indices. -/
def column (i : IVec S800000 32) : IVec S800000x1 32 :=
  broadcastInDim S800000x1 ![0] bcast_S800000_S800000x1_0 (wrap i)

/-- Which edges have their (wrapped) column index inside [0, 49999]. -/
def inRange (cols : IVec S800000 32) : IVec S800000 1 :=
  Host.reduce IntOp.andi
    (andi (cmpi .sge (column cols) (broadcastInDim S800000x1 ![] bcast_S_S800000x1 (constantI S_ 32 0#32)))
      (cmpi .sle (column cols) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of x at the edges' column indices (the fill value where the index is out of range). -/
def taken (x : FVec F S8x50000x32 .f32) (cols : IVec S800000 32) : FVec F S8x800000x32 .f32 :=
  select (broadcastInDim S8x800000x32 ![1] bcast_S800000_S8x800000x32_1 (inRange cols))
    (Host.gather gather_S8x50000x32_S800000x1_S8x800000x32_02_1_n_n_1_1_8132 x (column cols))
    (broadcastInDim S8x800000x32 ![] bcast_S_S8x800000x32 (constant S_ .f32 0x7FC00000#32))

/-- The aggregated array: the weighted gathered rows scatter-added into zeros at the edges' row indices. -/
def aggregate (x : FVec F S8x50000x32 .f32) (rows cols : IVec S800000 32) (vals : FVec F S800000 .f32) :
    FVec F S8x50000x32 .f32 :=
  Host.scatterAdd scatter_S8x50000x32_S800000x1_S8x800000x32_02_1_1_1
    (broadcastInDim S8x50000x32 ![] bcast_S_S8x50000x32 (constant S_ .f32 0x00000000#32))
    (column rows)
    (mulf (taken x cols)
      (broadcastInDim S8x800000x32 ![0, 1, 2] bcast_S1x800000x1_S8x800000x32_0_1_2
        (broadcastInDim S1x800000x1 ![1] bcast_S800000_S1x800000x1_1 vals)))

end Cert.KernelIdeal.Sparse

end
-- ==== Proof.LibTransport.lean ====
/-
  A transport along an equation between a type and itself.

  A typed reference to a host buffer carries a value between "contents at the value's type" and "contents at the
  buffer's type"; at a literal buffer the two types are the same type and the transport is the identity.  The equation
  is stated with a proof by heterogeneous equality, so that each removal of a transport from a long composed term is a
  rewrite step with its own justification.
-/

namespace Cert.Lib.Transport

/-- Transporting along `h : α = α` changes nothing. -/
theorem cast_self {α : Sort _} (h : α = α) (a : α) : cast h a = a := eq_of_heq (cast_heq h a)

end Cert.Lib.Transport
-- ==== Proof.KernelRun.lean ====
/-
  The kernel's run, read back.

  Before the region the host computes the aggregated array y (the sparse stage) and flattens it to 400000 × 32; the
  region leaves the dense layer of that array, the weights and the bias in the result array; after the region the host
  splits the 400000 rows back into 8 × 50000.  So the program's result is
      unflatten (layer (flatten (aggregate x rows cols vals)) W b).
-/
import proofs.«146324_j43559558316209_1_alg».proof.Proof.KernelValue
import proofs.«146324_j43559558316209_1_alg».proof.Proof.Head
import proofs.«146324_j43559558316209_1_alg».proof.Proof.LibTransport
import Idealize.ShloMosaic.Lib.StableHlo.Run

noncomputable section

namespace Cert.KernelIdeal.Dense

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The kernel program's dense stage on any [8, 50000, 32] array: flatten, take the dense layer row by row, split the
    rows again. -/
def dense (y : FVec Ideal S8x50000x32 .f32) (w : FVec Ideal S32x32 .f32) (b : FVec Ideal S32 .f32) :
    FVec Ideal S8x50000x32 .f32 :=
  shapeCast S8x50000x32 (layer (shapeCast S400000x32 y shapeCasts_S8x50000x32_S400000x32) w b)
    shapeCasts_S400000x32_S8x50000x32

/-- The kernel program's result as a function of its arguments: the dense stage of the aggregated array. -/
def out (x : FVec Ideal S8x50000x32 .f32) (rows cols : IVec S800000 32) (vals : FVec Ideal S800000 .f32)
    (w : FVec Ideal S32x32 .f32) (b : FVec Ideal S32 .f32) : FVec Ideal S8x50000x32 .f32 :=
  dense (Sparse.aggregate x rows cols vals) w b

set_option maxRecDepth 8192 in
/-- The array the region's first window stages is the aggregated array of the arguments, flattened. -/
theorem entry_rows (c : Dev nD) :
    (V m c main_v12 : S400000x32.Idx → EReal)
      = shapeCast S400000x32 (Sparse.aggregate (F := Ideal) (m ((c.tc : Thread nD τ).loc main_arg0)) (m ((c.tc : Thread nD τ).loc main_arg1))
          (m ((c.tc : Thread nD τ).loc main_arg2)) (m ((c.tc : Thread nD τ).loc main_arg3))) shapeCasts_S8x50000x32_S400000x32 := by
  dsimp only [V, V0]
  simp only [hostOps0, hostOps0_1, List.flatten_cons, List.flatten_nil, List.append_nil, List.cons_append, List.nil_append]
  after_results_simp
  simp only [TRef.toBuf, TRef.ofBuf, Cert.Lib.Transport.cast_self]
  rfl

/-- After the region the host splits the result array's rows back into batches and nodes. -/
theorem tail_eq (c : Dev nD) :
    Pipeline.afterTail₀ cfgs (dats m) 0 (V0 m) [hostOps1] c main_v14
      = shapeCast S8x50000x32 ((dats m 0 c).arrAt 3 cfg0.N) shapeCasts_S400000x32_S8x50000x32 := by
  unfold Pipeline.afterTail₀
  show StableHlo.after hostOps1 _ (Proc.devRef .tc main_v14) = _
  after_results
  rw [Pipeline.withArrays_arr spec0 launch0.win.arr_inj c _ _ 3]
  rfl

/-- Every weakly fair execution of the kernel program terminates with its result at `out` of the launch contents of its
    arguments, and the arguments unchanged. -/
theorem run : θ_run defs (onTc (τ := τ) (main (F := Ideal))) ⟨m, fun _ => 0, ρ⟩ fun r => ∀ c : Dev nD,
      r.2.mem ((c.tc : Thread nD τ).loc main_v14)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩) (run_main m ρ)
  refine ((h c).2 main_v14 (Pipeline.mem_restRefs_of main_v14 (by decide) (by decide))).trans ?_
  rw [tail_eq, final, entry_rows, V_main_arg4, V_main_arg5]
  rfl

end Cert.KernelIdeal.Dense

end
-- ==== Proof.RefRun.lean ====
/-
  The reference's run, read back.

  The reference is a straight line of 41 host operations: the column gather (23 operations: wrap the negative
  indices, mask the out-of-range ones, gather, fill), the edge weighting, the scatter-add into zeros, the product of
  the aggregated array with the weight matrix along the feature axis, and the bias.  Substituting each
  operation's result into its consumers gives the result as ONE function `out` of the six arguments.
-/
import proofs.«146324_j43559558316209_1_alg».proof.Proof.Gen.ReferenceIdeal
import proofs.«146324_j43559558316209_1_alg».proof.Proof.Head
import proofs.«146324_j43559558316209_1_alg».proof.Proof.LibTransport
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order: the twenty-three of the column gather (index wrap, range mask, gather, fill),
    then the edge weighting, the scatter-add into zeros, the product with the weight matrix and the bias. -/
abbrev ops : List (HloOp τ sig (Elt F)) :=
  [
    TRef.nullary (.of main_call0_c : TRef sig ⟨S_, .i32⟩) (constantI S_ 32 0#32),
    TRef.unary (.of main_call0_c : TRef sig ⟨S_, .i32⟩) (.of main_call0_v0 : TRef sig ⟨S800000, .i32⟩) (broadcastInDim S800000 ![] bcast_S_S800000),
    TRef.binary (.of main_arg2 : TRef sig ⟨S800000, .i32⟩) (.of main_call0_v0 : TRef sig ⟨S800000, .i32⟩) (.of main_call0_v1 : TRef sig ⟨S800000, .i1⟩) (cmpi .slt),
    TRef.nullary (.of main_call0_c_0 : TRef sig ⟨S_, .i32⟩) (constantI S_ 32 50000#32),
    TRef.unary (.of main_call0_c_0 : TRef sig ⟨S_, .i32⟩) (.of main_call0_v2 : TRef sig ⟨S800000, .i32⟩) (broadcastInDim S800000 ![] bcast_S_S800000),
    TRef.binary (.of main_arg2 : TRef sig ⟨S800000, .i32⟩) (.of main_call0_v2 : TRef sig ⟨S800000, .i32⟩) (.of main_call0_v3 : TRef sig ⟨S800000, .i32⟩) addi,
    TRef.ternary (.of main_call0_v1 : TRef sig ⟨S800000, .i1⟩) (.of main_call0_v3 : TRef sig ⟨S800000, .i32⟩) (.of main_arg2 : TRef sig ⟨S800000, .i32⟩) (.of main_call0_v4 : TRef sig ⟨S800000, .i32⟩) select,
    TRef.unary (.of main_call0_v4 : TRef sig ⟨S800000, .i32⟩) (.of main_call0_v5 : TRef sig ⟨S800000x1, .i32⟩) (broadcastInDim S800000x1 ![0] bcast_S800000_S800000x1_0),
    TRef.nullary (.of main_call0_c_1 : TRef sig ⟨S1, .i32⟩) (constantI S1 32 49999#32),
    TRef.nullary (.of main_call0_c_2 : TRef sig ⟨S_, .i32⟩) (constantI S_ 32 0#32),
    TRef.unary (.of main_call0_c_2 : TRef sig ⟨S_, .i32⟩) (.of main_call0_v6 : TRef sig ⟨S800000x1, .i32⟩) (broadcastInDim S800000x1 ![] bcast_S_S800000x1),
    TRef.binary (.of main_call0_v5 : TRef sig ⟨S800000x1, .i32⟩) (.of main_call0_v6 : TRef sig ⟨S800000x1, .i32⟩) (.of main_call0_v7 : TRef sig ⟨S800000x1, .i1⟩) (cmpi .sge),
    TRef.unary (.of main_call0_c_1 : TRef sig ⟨S1, .i32⟩) (.of main_call0_v8 : TRef sig ⟨S1x1, .i32⟩) (broadcastInDim S1x1 ![1] bcast_S1_S1x1_1),
    TRef.unary (.of main_call0_v8 : TRef sig ⟨S1x1, .i32⟩) (.of main_call0_v9 : TRef sig ⟨S800000x1, .i32⟩) (broadcastInDim S800000x1 ![0, 1] bcast_S1x1_S800000x1_0_1),
    TRef.binary (.of main_call0_v5 : TRef sig ⟨S800000x1, .i32⟩) (.of main_call0_v9 : TRef sig ⟨S800000x1, .i32⟩) (.of main_call0_v10 : TRef sig ⟨S800000x1, .i1⟩) (cmpi .sle),
    TRef.binary (.of main_call0_v7 : TRef sig ⟨S800000x1, .i1⟩) (.of main_call0_v10 : TRef sig ⟨S800000x1, .i1⟩) (.of main_call0_v11 : TRef sig ⟨S800000x1, .i1⟩) andi,
    TRef.nullary (.of main_call0_c_3 : TRef sig ⟨S_, .i1⟩) (constantI S_ 1 1#1),
    TRef.binary (.of main_call0_v11 : TRef sig ⟨S800000x1, .i1⟩) (.of main_call0_c_3 : TRef sig ⟨S_, .i1⟩) (.of main_call0_v12 : TRef sig ⟨S800000, .i1⟩) (fun x v => Host.reduce IntOp.andi x v reducesTo_S800000x1_S800000_d1 h_S_),
    TRef.binary (.of main_arg0 : TRef sig ⟨S8x50000x32, .f32⟩) (.of main_call0_v5 : TRef sig ⟨S800000x1, .i32⟩) (.of main_call0_v13 : TRef sig ⟨S8x800000x32, .f32⟩) (fun x i => Host.gather gather_S8x50000x32_S800000x1_S8x800000x32_02_1_n_n_1_1_8132 x i),
    TRef.unary (.of main_call0_v12 : TRef sig ⟨S800000, .i1⟩) (.of main_call0_v14 : TRef sig ⟨S8x800000x32, .i1⟩) (broadcastInDim S8x800000x32 ![1] bcast_S800000_S8x800000x32_1),
    TRef.nullary (.of main_call0_cst : TRef sig ⟨S_, .f32⟩) (constant S_ .f32 0x7FC00000#32),
    TRef.unary (.of main_call0_cst : TRef sig ⟨S_, .f32⟩) (.of main_call0_v15 : TRef sig ⟨S8x800000x32, .f32⟩) (broadcastInDim S8x800000x32 ![] bcast_S_S8x800000x32),
    TRef.ternary (.of main_call0_v14 : TRef sig ⟨S8x800000x32, .i1⟩) (.of main_call0_v13 : TRef sig ⟨S8x800000x32, .f32⟩) (.of main_call0_v15 : TRef sig ⟨S8x800000x32, .f32⟩) (.of main_v0 : TRef sig ⟨S8x800000x32, .f32⟩) select,
    unary main_arg3 main_v1 (broadcastInDim S1x800000x1 ![1] bcast_S800000_S1x800000x1_1 : (⟨S800000, .f32⟩ : BufTy).Contents (Elt F) → (⟨S1x800000x1, .f32⟩ : BufTy).Contents (Elt F)),
    unary main_v1 main_v2 (broadcastInDim S8x800000x32 ![0, 1, 2] bcast_S1x800000x1_S8x800000x32_0_1_2 : (⟨S1x800000x1, .f32⟩ : BufTy).Contents (Elt F) → (⟨S8x800000x32, .f32⟩ : BufTy).Contents (Elt F)),
    binary main_v0 main_v2 main_v3 (mulf : (⟨S8x800000x32, .f32⟩ : BufTy).Contents (Elt F) → (⟨S8x800000x32, .f32⟩ : BufTy).Contents (Elt F) → (⟨S8x800000x32, .f32⟩ : BufTy).Contents (Elt F)),
    nullary main_cst (constant S_ .f32 0x00000000#32),
    unary main_cst main_v4 (broadcastInDim S8x50000x32 ![] bcast_S_S8x50000x32 : (⟨S_, .f32⟩ : BufTy).Contents (Elt F) → (⟨S8x50000x32, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg1 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg1 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg1 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    ternary main_v4 main_v10 main_v3 main_v11 ((fun x i u => Host.scatterAdd scatter_S8x50000x32_S800000x1_S8x800000x32_02_1_1_1 x i u) : (⟨S8x50000x32, .f32⟩ : BufTy).Contents (Elt F) → (⟨S800000x1, .i32⟩ : BufTy).Contents (Elt F) → (⟨S8x800000x32, .f32⟩ : BufTy).Contents (Elt F) → (⟨S8x50000x32, .f32⟩ : BufTy).Contents (Elt F)),
    binary main_v11 main_arg4 main_v12 ((fun l r => Host.dotGeneral dot_S8x50000x32_S32x32_S8x50000x32_2_0_01_1_n_n none l r) : (⟨S8x50000x32, .f32⟩ : BufTy).Contents (Elt F) → (⟨S32x32, .f32⟩ : BufTy).Contents (Elt F) → (⟨S8x50000x32, .f32⟩ : BufTy).Contents (Elt F)),
    unary main_arg5 main_v13 (broadcastInDim S1x1x32 ![2] bcast_S32_S1x1x32_2 : (⟨S32, .f32⟩ : BufTy).Contents (Elt F) → (⟨S1x1x32, .f32⟩ : BufTy).Contents (Elt F)),
    unary main_v13 main_v14 (broadcastInDim S8x50000x32 ![0, 1, 2] bcast_S1x1x32_S8x50000x32_0_1_2 : (⟨S1x1x32, .f32⟩ : BufTy).Contents (Elt F) → (⟨S8x50000x32, .f32⟩ : BufTy).Contents (Elt F)),
    binary main_v12 main_v14 main_v15 (addf : (⟨S8x50000x32, .f32⟩ : BufTy).Contents (Elt F) → (⟨S8x50000x32, .f32⟩ : BufTy).Contents (Elt F) → (⟨S8x50000x32, .f32⟩ : BufTy).Contents (Elt F)) ]

set_option maxRecDepth 2048 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub ..⟩

/-- The reference's dense stage on any [8, 50000, 32] array: its product with the weight matrix along the feature axis,
    plus the bias spread over batches and nodes. -/
def dense (y : FVec F S8x50000x32 .f32) (w : FVec F S32x32 .f32) (b : FVec F S32 .f32) : FVec F S8x50000x32 .f32 :=
  addf (Host.dotGeneral dot_S8x50000x32_S32x32_S8x50000x32_2_0_01_1_n_n none y w)
    (broadcastInDim S8x50000x32 ![0, 1, 2] bcast_S1x1x32_S8x50000x32_0_1_2 (broadcastInDim S1x1x32 ![2] bcast_S32_S1x1x32_2 b))

/-- The reference's result as a function of its arguments: the dense stage of the aggregated array. -/
def out (x : FVec F S8x50000x32 .f32) (rows cols : IVec S800000 32) (vals : FVec F S800000 .f32)
    (w : FVec F S32x32 .f32) (b : FVec F S32 .f32) : FVec F S8x50000x32 .f32 :=
  dense (Cert.KernelIdeal.Sparse.aggregate x rows cols vals) w b

set_option maxRecDepth 8192 in
/-- The fold of the operations at the result buffer is `out` of the arguments: each operation's result substituted
    into its consumers. -/
theorem out_eq (V : Valuation τ sig (Elt F)) :
    after ops V (main_v15 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf, Cert.Lib.Transport.cast_self]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- Every weakly fair execution of the reference terminates with its result at `out` of the launch contents of its
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.HandRun

end
-- ==== Proof.LibFlattenRows.lean ====
/-
  The two leading axes of a rank-3 array merged into one, and split again, read at an index; a vector spread over the
  two leading axes of a rank-3 array; and a matrix product over the last axis of a rank-3 array.

  Row-major order puts entry (i, j, k) of an [a, b, c] array at position (i·b + j)·c + k, which is where entry
  (i·b + j, k) of an [a·b, c] array sits: a reshape between the two shapes moves nothing, it only renames
  (i, j) ↔ i·b + j.  A batched product [a, b, K] × [K, N] → [a, b, N] contracting the last axis of the left operand
  with the first of the right is, at (i, j, q), the sum over k of x(i, j, k) · w(k, q): the same sum as row i·b + j of
  the flattened left operand against column q.  No finiteness is needed: these are re-indexings.
-/
import proofs.«146324_j43559558316209_1_alg».proof.Proof.LibDense
import Idealize.ShloMosaic.Lib.ValueLayout

noncomputable section

namespace Cert.Lib.FlattenRows

open Idealize.ShloMosaic Idealize.ShloMosaic.ValueIdx Cert.Lib.Dense
open scoped BigOperators

variable {α : Type}

/-- An [a, b, c] array reshaped to [n, c] (n = a·b) reads, at (r, k) with r = i·b + j, the operand at (i, j, k). -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] array (n = a·b) reshaped to [a, b, c] reads, at (i, j, k), the operand at (i·b + j, k). -/
theorem unflatten_apply {a b c n : ℕ} (z : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ z h (ix3 i j k) = z (ix2 r k) :=
  shapeCast_apply z h _ _ (by
    rw [Shape.rowMajor_val_three, Shape.rowMajor_val_two]
    show r.val * c + k.val = (i.val * b + j.val) * c + k.val
    rw [hr])

/-- A vector of length n placed on the last axis of [1, 1, n] and spread over [a, b, n] reads, at (i, j, q), its entry q. -/
theorem lastAxis_spread_apply {a b n : ℕ} (v : (⟨1, ![n]⟩ : Shape).Idx → α)
    (h1 : (⟨1, ![n]⟩ : Shape).BroadcastsInDim ⟨3, ![1, 1, n]⟩ (![2] : Fin 1 → Fin 3))
    (h2 : (⟨3, ![1, 1, n]⟩ : Shape).BroadcastsInDim ⟨3, ![a, b, n]⟩ (![0, 1, 2] : Fin 3 → Fin 3))
    (i : Fin a) (j : Fin b) (q : Fin n) :
    broadcastInDim ⟨3, ![a, b, n]⟩ ![0, 1, 2] h2 (broadcastInDim ⟨3, ![1, 1, n]⟩ ![2] h1 v) (ix3 i j q) = v (ix1 q) := by
  have hq : (if n = 1 then 0 else q.val) = q.val := by
    split
    · have := q.isLt; omega
    · rfl
  refine (broadcastInDim_apply _ h2 _ (ix3 i j q) (ix3 (0 : Fin 1) (0 : Fin 1) q) fun ax => ?_).trans
    (broadcastInDim_apply _ h1 v (ix3 (0 : Fin 1) (0 : Fin 1) q) (ix1 q) fun ax => ?_)
  · match ax with
    | ⟨0, _⟩ => rfl
    | ⟨1, _⟩ => rfl
    | ⟨2, _⟩ => exact hq.symm
  · match ax with
    | ⟨0, _⟩ => exact hq.symm

section Batched

variable {A B K N : ℕ} (D : DotDims ⟨3, ![A, B, K]⟩ ⟨2, ![K, N]⟩ ⟨3, ![A, B, N]⟩)
  (hlc : D.lhsContracting = [2]) (hrc : D.rhsContracting = [0])
  (hln : D.lhsNonContracting = [0, 1]) (hrn : D.rhsNonContracting = [1])
  (hlb : D.lhsBatch = []) (hrb : D.rhsBatch = [])

include hlc in
theorem batched_rank : D.contr.rank = 1 := by rw [D.rank_contr, hlc]; rfl

include hlc in
theorem batched_size : D.contr.size ⟨0, by rw [batched_rank D hlc]; exact Nat.one_pos⟩ = K := by
  have := D.size_contr 0 (by rw [hlc]; exact Nat.one_pos)
  rw [this]
  simp [hlc]

/-- Equal positions, equal coordinates. -/
private theorem coord_congr {s : Shape} (j : s.Idx) (p q : Nat) (hp : p < s.rank) (hq : q < s.rank) (h : p = q) :
    (j ⟨p, hp⟩).val = (j ⟨q, hq⟩).val := by subst h; rfl

include hln hlb in
/-- The left operand's first free coordinate is the result's first. -/
theorem batched_lhs0 (j : (⟨3, ![A, B, N]⟩ : Shape).Idx) (k : D.contr.Idx) : (D.lhsIdx j k 0).val = (j 0).val := by
  have hb : (0 : Fin 3) ∉ D.lhsBatch := by rw [hlb]; simp
  have hn : (0 : Fin 3) ∈ D.lhsNonContracting := by rw [hln]; simp
  unfold DotDims.lhsIdx
  rw [dif_neg hb, dif_pos hn]
  simp only [Fin.val_cast]
  exact coord_congr j _ _ _ _ (by simp [hlb, hln])

include hln hlb in
/-- The left operand's second free coordinate is the result's second. -/
theorem batched_lhs1 (j : (⟨3, ![A, B, N]⟩ : Shape).Idx) (k : D.contr.Idx) : (D.lhsIdx j k 1).val = (j 1).val := by
  have hb : (1 : Fin 3) ∉ D.lhsBatch := by rw [hlb]; simp
  have hn : (1 : Fin 3) ∈ D.lhsNonContracting := by rw [hln]; simp
  unfold DotDims.lhsIdx
  rw [dif_neg hb, dif_pos hn]
  simp only [Fin.val_cast]
  exact coord_congr j _ _ _ _ (by simp [hlb, hln])

include hrn hrb hln hlb in
/-- The right operand's free coordinate is the result's last. -/
theorem batched_rhs1 (j : (⟨3, ![A, B, N]⟩ : Shape).Idx) (k : D.contr.Idx) : (D.rhsIdx j k 1).val = (j 2).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  exact coord_congr j _ _ _ _ (by simp [hlb, hln, hrn])

include hlc hrc hln hrn hlb hrb in
/-- The contraction of a batched product at entry (i, j, q): the sum over k of x(i, j, k) · w(k, q). -/
theorem batched_sum (f : (⟨3, ![A, B, K]⟩ : Shape).Idx → EReal) (g : (⟨2, ![K, N]⟩ : Shape).Idx → EReal)
    (i : Fin A) (j : Fin B) (q : Fin N) :
    ∑ k : D.contr.Idx, f (D.lhsIdx (ix3 i j q) k) * g (D.rhsIdx (ix3 i j q) k) = ∑ k : Fin K, f (ix3 i j k) * g (ix2 k q) := by
  refine contr_sum D K (batched_rank D hlc) (batched_size D hlc) f g (ix3 i j q) (fun k => ix3 i j k) (fun k => ix2 k q)
    (fun k => ?_) (fun k => ?_)
  · funext a; apply Fin.ext
    match a with
    | ⟨0, _⟩ => exact batched_lhs0 D hln hlb (ix3 i j q) _
    | ⟨1, _⟩ => exact batched_lhs1 D hln hlb (ix3 i j q) _
    | ⟨2, _⟩ => exact (D.lhsIdx_val_of_single hlc (ix3 i j q) _).trans (contrEquiv1_symm_val D K (batched_rank D hlc) (batched_size D hlc) k)
  · funext a; apply Fin.ext
    match a with
    | ⟨0, _⟩ => exact (D.rhsIdx_val_of_single hrc (ix3 i j q) _).trans (contrEquiv1_symm_val D K (batched_rank D hlc) (batched_size D hlc) k)
    | ⟨1, _⟩ => exact batched_rhs1 D hln hrn hlb hrb (ix3 i j q) _

include hlc hrc hln hrn hlb hrb in
/-- The host's general dot product over the last axis of a rank-3 left operand, at entry (i, j, q). -/
theorem dotGeneral3_at {φ₁ φ₂ : FTy} (x : FVec Ideal ⟨3, ![A, B, K]⟩ φ₁) (w : FVec Ideal ⟨2, ![K, N]⟩ φ₂)
    (i : Fin A) (j : Fin B) (q : Fin N) :
    Host.dotGeneral D none x w (ix3 i j q) = ∑ k : Fin K, x (ix3 i j k) * w (ix2 k q) :=
  (Ideal.dotGeneral_apply D none .single x w (ix3 i j q)).trans (batched_sum D hlc hrc hln hrn hlb hrb x w i j q)

end Batched

/-- Flattening the two leading axes does not change a row's product with a column: row i·b + j of the flattened array
    against column q is the sum over k of x(i, j, k) · w(k, q). -/
theorem rowDot_flatten {a b K N n : ℕ} (x : (⟨3, ![a, b, K]⟩ : Shape).Idx → EReal) (w : (⟨2, ![K, N]⟩ : Shape).Idx → EReal)
    (h : (⟨3, ![a, b, K]⟩ : Shape).ShapeCasts ⟨2, ![n, K]⟩) (i : Fin a) (j : Fin b) (q : Fin N) (r : Fin n)
    (hr : r.val = i.val * b + j.val) :
    rowDot (shapeCast ⟨2, ![n, K]⟩ x h) w r q = ∑ k : Fin K, x (ix3 i j k) * w (ix2 k q) :=
  Finset.sum_congr rfl fun k _ => by rw [flatten_apply x h i j k r hr]

end Cert.Lib.FlattenRows

end
-- ==== Proof.Bridge.lean ====
/-
  The two programs compute one function.

  Write y for the aggregated array both programs build from x, the edge list and the edge weights.  The reference's
  result at (n, m, o) is Σ_k y(n, m, k) · W(k, o) + b(o): a product over the feature axis of the rank-3 array, plus the
  bias spread over batches and nodes.  The kernel flattens y to 400000 rows, takes the dense layer row by row and
  splits the rows again: at (n, m, o) it reads row 50000·n + m of the flattened array, which holds y(n, m, ·), against
  column o of W, plus b(o).  The two sums are the same sum term by term, for ANY array y: the aggregation is never
  opened, and nothing here needs the inputs to be finite.
-/
import proofs.«146324_j43559558316209_1_alg».proof.Proof.KernelRun
import proofs.«146324_j43559558316209_1_alg».proof.Proof.RefRun
import proofs.«146324_j43559558316209_1_alg».proof.Proof.LibFlattenRows

noncomputable section

namespace Cert.Bridge

open Idealize.ShloMosaic Idealize.ShloMosaic.ValueIdx Cert.Lib.Dense Cert.Lib.FlattenRows
open scoped BigOperators

/-- The reference's dense stage at entry (n, m, o). -/
theorem ref_dense_at (y : FVec Ideal Cert.ReferenceIdeal.S8x50000x32 .f32) (w : FVec Ideal Cert.ReferenceIdeal.S32x32 .f32)
    (b : FVec Ideal Cert.ReferenceIdeal.S32 .f32) (n : Fin 8) (mm : Fin 50000) (o : Fin 32) :
    Cert.ReferenceIdeal.HandRun.dense (F := Ideal) y w b (ix3 n mm o)
      = (∑ k : Fin 32, y (ix3 n mm k) * w (ix2 k o)) + b (ix1 o) := by
  unfold Cert.ReferenceIdeal.HandRun.dense
  refine congrArg₂ (fun u v : EReal => u + v) ?_ ?_
  · exact dotGeneral3_at Cert.ReferenceIdeal.dot_S8x50000x32_S32x32_S8x50000x32_2_0_01_1_n_n rfl rfl rfl rfl rfl rfl y w n mm o
  · exact lastAxis_spread_apply b _ _ n mm o

/-- The kernel program's dense stage at entry (n, m, o). -/
theorem kernel_dense_at (y : FVec Ideal Cert.KernelIdeal.S8x50000x32 .f32) (w : FVec Ideal Cert.KernelIdeal.S32x32 .f32)
    (b : FVec Ideal Cert.KernelIdeal.S32 .f32) (n : Fin 8) (mm : Fin 50000) (o : Fin 32) :
    Cert.KernelIdeal.Dense.dense y w b (ix3 n mm o)
      = (∑ k : Fin 32, y (ix3 n mm k) * w (ix2 k o)) + b (ix1 o) := by
  have hr : n.val * 50000 + mm.val < 400000 := by
    have := n.isLt; have := mm.isLt; omega
  unfold Cert.KernelIdeal.Dense.dense
  refine (unflatten_apply _ _ n mm o ⟨n.val * 50000 + mm.val, hr⟩ rfl).trans ?_
  refine congrArg (fun u : EReal => u + b (ix1 o)) ?_
  exact rowDot_flatten y w _ n mm o ⟨n.val * 50000 + mm.val, hr⟩ rfl

/-- The two dense stages are one function of the aggregated array, the weights and the bias. -/
theorem dense_eq (y : FVec Ideal Cert.KernelIdeal.S8x50000x32 .f32) (w : FVec Ideal Cert.KernelIdeal.S32x32 .f32)
    (b : FVec Ideal Cert.KernelIdeal.S32 .f32) :
    Cert.ReferenceIdeal.HandRun.dense (F := Ideal) y w b = Cert.KernelIdeal.Dense.dense y w b := by
  funext i
  obtain ⟨n, mm, o, rfl⟩ : ∃ (n : Fin 8) (mm : Fin 50000) (o : Fin 32), i = ix3 n mm o := ⟨i 0, i 1, i 2, eq_ix3 i⟩
  rw [ref_dense_at, kernel_dense_at]

/-- So the reference's result function is the kernel program's. -/
theorem out_eq (x : FVec Ideal Cert.KernelIdeal.S8x50000x32 .f32) (rows cols : IVec Cert.KernelIdeal.S800000 32)
    (vals : FVec Ideal Cert.KernelIdeal.S800000 .f32) (w : FVec Ideal Cert.KernelIdeal.S32x32 .f32)
    (b : FVec Ideal Cert.KernelIdeal.S32 .f32) :
    Cert.ReferenceIdeal.HandRun.out (F := Ideal) x rows cols vals w b = Cert.KernelIdeal.Dense.out x rows cols vals w b :=
  dense_eq (Cert.KernelIdeal.Sparse.aggregate x rows cols vals) w b

end Cert.Bridge

end
-- ==== Proof.lean ====
/-
  The certificate: a batched sparse aggregation followed by a dense layer, kernel against reference.

  Both programs first build, on the host and by the same operations, the aggregated array
      y(n, r, f) = Σ over edges e with row r of x(n, col_e, f) · val_e.
  The reference then returns y · W + b along the feature axis.  The kernel program flattens y to 400000 × 32, runs a
  pallas_call over 40 blocks of 10000 rows — each block the matrix-unit product of its rows (narrowed to bf16, which on
  the extended reals changes nothing) with W, accumulated from zero, plus b — and splits the rows back to 8 × 50000.
  At every entry both are Σ_k y(n, m, k) · W(k, o) + b(o), so the results agree on all extended-real inputs; the
  precondition is never opened.  The three frames are the kernel programs' generated frames and the reference's run;
  the idealization rewrote nothing, so it is preserved trivially.
-/
import proofs.«146324_j43559558316209_1_alg».proof.Defs
import proofs.«146324_j43559558316209_1_alg».proof.Proof.Gen.Kernel
import proofs.«146324_j43559558316209_1_alg».proof.Proof.Gen.Kernel.Skeleton
import proofs.«146324_j43559558316209_1_alg».proof.Proof.Gen.Kernel.Launch
import proofs.«146324_j43559558316209_1_alg».proof.Proof.Gen.Kernel.Points
import proofs.«146324_j43559558316209_1_alg».proof.Proof.Gen.Kernel.Frame
import proofs.«146324_j43559558316209_1_alg».proof.Proof.Gen.KernelIdeal
import proofs.«146324_j43559558316209_1_alg».proof.Proof.Gen.KernelIdeal.Skeleton
import proofs.«146324_j43559558316209_1_alg».proof.Proof.Gen.KernelIdeal.Launch
import proofs.«146324_j43559558316209_1_alg».proof.Proof.Gen.KernelIdeal.Points
import proofs.«146324_j43559558316209_1_alg».proof.Proof.Gen.KernelIdeal.Frame
import proofs.«146324_j43559558316209_1_alg».proof.Proof.Gen.ReferenceIdeal
import proofs.«146324_j43559558316209_1_alg».proof.Proof.Gen.Pre_finite_inputs
import proofs.«146324_j43559558316209_1_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both programs end with one array: the kernel program's at its result
    function of the arguments, the reference's at its own, and the two functions are equal. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5⟩ := hagree c
  rw [a0, a1, a2, a3, a4, a5]
  exact Cert.Bridge.out_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
